-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x512 : Shape := ⟨3, ![8, 8192, 512]⟩
abbrev S512x128 : Shape := ⟨2, ![512, 128]⟩
abbrev S128 : Shape := ⟨1, ![128]⟩
abbrev S_ : Shape := ⟨0, ![]⟩

class Facts : Prop where
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S8x8192x512 .f32) (main_arg1 : FVec F S512x128 .f32) (main_arg2 : FVec F S128 .f32) : IVec S_ 1 :=
  let main_v0 : FVec F S8x8192x512 .f32 := Host.absf main_arg0
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_c : IVec S_ 1 := constantI S_ 1 1#1
  let main_v3 : IVec S_ 1 := (fun x v => Host.reduce IntOp.andi x v reducesTo_S8x8192x512_S_d0_1_2 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S8x8192x512 : Shape := ⟨3, ![8, 8192, 512]⟩
abbrev S512x128 : Shape := ⟨2, ![512, 128]⟩
abbrev S128 : Shape := ⟨1, ![128]⟩
abbrev S8x1x512 : Shape := ⟨3, ![8, 1, 512]⟩
abbrev S1x4096x512 : Shape := ⟨3, ![1, 4096, 512]⟩
abbrev S1x1x512 : Shape := ⟨3, ![1, 1, 512]⟩
abbrev S1x512 : Shape := ⟨2, ![1, 512]⟩
abbrev S1x128 : Shape := ⟨2, ![1, 128]⟩
abbrev S8x8192x128 : Shape := ⟨3, ![8, 8192, 128]⟩
abbrev S1x8192x128 : Shape := ⟨3, ![1, 8192, 128]⟩
abbrev S1x512x128 : Shape := ⟨3, ![1, 512, 128]⟩

abbrev nBuf : Space → Nat
  | .hbm => 6
  | .vmem => 10
  | .smem => 0
  | _ => 0

abbrev bufTy : (tb : Table) → Fin (tcTables nBuf tb) → BufTy
  | .hbm, ⟨0, _⟩ => ⟨S8x8192x512, .f32⟩
  | .hbm, ⟨1, _⟩ => ⟨S512x128, .f32⟩
  | .hbm, ⟨2, _⟩ => ⟨S128, .f32⟩
  | .hbm, ⟨3, _⟩ => ⟨S8x1x512, .f32⟩
  | .hbm, ⟨4, _⟩ => ⟨S1x128, .f32⟩
  | .hbm, ⟨5, _⟩ => ⟨S8x8192x128, .f32⟩
  | .local _ .vmem, ⟨0, _⟩ => ⟨S1x4096x512, .f32⟩
  | .local _ .vmem, ⟨1, _⟩ => ⟨S1x4096x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S512x128, .f32⟩
  | .local _ .vmem, ⟨7, _⟩ => ⟨S1x128, .f32⟩
  | .local _ .vmem, ⟨8, _⟩ => ⟨S1x8192x128, .f32⟩
  | .local _ .vmem, ⟨9, _⟩ => ⟨S1x8192x128, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![8], ![false]⟩

@[reducible] def k1_t1_loop : Scf.Loop 32 :=
  let c0_i32 : BitVec 32 := 0#32
  let c16_i32 : BitVec 32 := 16#32
  let v12 : BitVec 32 := Scalar.addi c0_i32 c16_i32
  let c1_i32 : BitVec 32 := 1#32
  ⟨c0_i32, v12, c1_i32⟩
def k1_mult1 (k1_t1 : Fin k1_t1_loop.trips) : BitVec 32 :=
  let c0_i32 : BitVec 32 := 0#32
  let c1_i32 : BitVec 32 := 1#32
  let arg5 : BitVec 32 := Scf.iv c0_i32 c1_i32 k1_t1
  let c512_i32 : BitVec 32 := 512#32
  let v13 : BitVec 32 := Scalar.muli arg5 c512_i32
  v13
def k1_off1 (k1_t1 : Fin k1_t1_loop.trips) : Fin 3 → Nat :=
  let c0_7 : Index := 0#32
  let c0_i32 : BitVec 32 := 0#32
  let c1_i32 : BitVec 32 := 1#32
  let arg5 : BitVec 32 := Scf.iv c0_i32 c1_i32 k1_t1
  let c512_i32 : BitVec 32 := 512#32
  let v13 : BitVec 32 := Scalar.muli arg5 c512_i32
  let v14 : BitVec 32 := v13
  let v15 : Index := Scalar.indexCast v14
  let c0_8 : Index := 0#32
  ![0, v15.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x8192x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  inb_S1x4096x512_S1x4096x512_0_0_0 : ∀ a, (![0, 0, 0] : Fin 3 → Nat) a + S1x4096x512.size a ≤ S1x4096x512.size a
  h_S1x4096x512 : 0 < S1x4096x512.numel
  reduces_S1x4096x512_S1x512 : S1x4096x512.Reduces [1] S1x512
  shapeCasts_S1x512_S1x1x512 : S1x512.ShapeCasts S1x1x512
  shapeCasts_S128_S1x128 : S128.ShapeCasts S1x128
  shapeCasts_S1x1x512_S1x512 : S1x1x512.ShapeCasts S1x512
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  h_S1x512x128 : 0 < S1x512x128.numel
  shapeCasts_S1x512x128_S512x128 : S1x512x128.ShapeCasts S512x128
  shapeCasts_S512x128_S1x512x128 : S512x128.ShapeCasts S1x512x128
  dot_S1x512_S512x128_S1x128_1_0_0_1_n_n_wf : DotDims.WF S1x512 S512x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x512.size a ≤ S8x8192x512.size a
  hwx0_0 : ∀ i : grid0.Coords, EltTy.bits .f32 = 32 ∨ (Rect.block (s := S8x8192x512) S1x4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S8x1x512.size a
  hwx0_1 : ∀ i : grid0.Coords, EltTy.bits .f32 = 32 ∨ (Rect.block (s := S8x1x512) S1x1x512.size (cc0_transform_1 i) (hinb0_1 i)).WholeWords (EltTy.packing .f32)
  hrank1 : 0 < grid1.rank
  k1_t1_ok : k1_t1_loop.OK
  k1_mult1_dvd : ∀ k1_t1 : Fin k1_t1_loop.trips, 512 ∣ (k1_mult1 k1_t1).toNat
  k1_off1_inb : ∀ k1_t1 : Fin k1_t1_loop.trips, ∀ a, (k1_off1 k1_t1) a + S1x512x128.size a ≤ S1x8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512.size a ≤ S8x1x512.size a
  hwx1_0 : ∀ i : grid1.Coords, EltTy.bits .f32 = 32 ∨ (Rect.block (s := S8x1x512) S1x1x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .f32 = 32 ∨ (Rect.block (s := S512x128) S512x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8192x128.size a ≤ S8x8192x128.size a
  hwx1_3 : ∀ i : grid1.Coords, EltTy.bits .f32 = 32 ∨ (Rect.block (s := S8x8192x128) S1x8192x128.size (cc1_transform_3 i) (hinb1_3 i)).WholeWords (EltTy.packing .f32)

variable [Facts₀]

def dot_S1x512_S512x128_S1x128_1_0_0_1_n_n : DotDims S1x512 S512x128 S1x128 where
  lhsContracting := [1]
  rhsContracting := [0]
  lhsNonContracting := [0]
  rhsNonContracting := [1]
  lhsBatch := []
  rhsBatch := []
  wf := dot_S1x512_S512x128_S1x128_1_0_0_1_n_n_wf

abbrev win0_0 : Pipeline.Window sig grid0 :=
  Pipeline.Window.ofSpec (Memref.whole main_arg0) S1x4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1x1x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x8192x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x8192x512 : Shape := ⟨3, ![8, 8192, 512]⟩
abbrev S512x128 : Shape := ⟨2, ![512, 128]⟩
abbrev S128 : Shape := ⟨1, ![128]⟩
abbrev S8x8192x128 : Shape := ⟨3, ![8, 8192, 128]⟩
abbrev S_ : Shape := ⟨0, ![]⟩
abbrev S8x128 : Shape := ⟨2, ![8, 128]⟩
abbrev S8x1x128 : Shape := ⟨3, ![8, 1, 128]⟩
abbrev S1x1x128 : Shape := ⟨3, ![1, 1, 128]⟩

abbrev nBuf : Space → Nat
  | .hbm => 14
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S512x128, .f32⟩
  | .hbm, ⟨2, _⟩ => ⟨S128, .f32⟩
  | .hbm, ⟨3, _⟩ => ⟨S8x8192x128, .f32⟩
  | .hbm, ⟨4, _⟩ => ⟨S_, .f32⟩
  | .hbm, ⟨5, _⟩ => ⟨S8x128, .f32⟩
  | .hbm, ⟨6, _⟩ => ⟨S8x1x128, .f32⟩
  | .hbm, ⟨7, _⟩ => ⟨S_, .f32⟩
  | .hbm, ⟨8, _⟩ => ⟨S8x1x128, .f32⟩
  | .hbm, ⟨9, _⟩ => ⟨S8x1x128, .f32⟩
  | .hbm, ⟨10, _⟩ => ⟨S8x8192x128, .f32⟩
  | .hbm, ⟨11, _⟩ => ⟨S1x1x128, .f32⟩
  | .hbm, ⟨12, _⟩ => ⟨S8x8192x128, .f32⟩
  | .hbm, ⟨13, _⟩ => ⟨S8x8192x128, .f32⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  reducesTo_S8x8192x128_S8x128_d1 : S8x8192x128.ReducesTo [1] S8x128
  h_S_ : 0 < S_.numel
  bcast_S8x128_S8x1x128_0_2 : S8x128.BroadcastsInDim S8x1x128 (![0, 2] : Fin 2 → Fin S8x1x128.rank)
  bcast_S_S8x1x128 : S_.BroadcastsInDim S8x1x128 (![] : Fin 0 → Fin S8x1x128.rank)
  bcast_S8x1x128_S8x8192x128_0_1_2 : S8x1x128.BroadcastsInDim S8x8192x128 (![0, 1, 2] : Fin 3 → Fin S8x8192x128.rank)
  bcast_S128_S1x1x128_2 : S128.BroadcastsInDim S1x1x128 (![2] : Fin 1 → Fin S1x1x128.rank)
  bcast_S1x1x128_S8x8192x128_0_1_2 : S1x1x128.BroadcastsInDim S8x8192x128 (![0, 1, 2] : Fin 3 → Fin S8x8192x128.rank)
  dot_S8x8192x512_S512x128_S8x8192x128_2_0_01_1_n_n_wf : DotDims.WF S8x8192x512 S512x128 S8x8192x128 [2] [0] [0, 1] [1] [] []

variable [Facts₀]

def dot_S8x8192x512_S512x128_S8x8192x128_2_0_01_1_n_n : DotDims S8x8192x512 S512x128 S8x8192x128 where
  lhsContracting := [2]
  rhsContracting := [0]
  lhsNonContracting := [0, 1]
  rhsNonContracting := [1]
  lhsBatch := []
  rhsBatch := []
  wf := dot_S8x8192x512_S512x128_S8x8192x128_2_0_01_1_n_n_wf

class Facts : Prop extends Facts₀ where

variable [Facts]
-- ==== Proof.Run.lean ====
/-
  The idealized kernel's run, with the result array kept.

  At the compiled mesh, from any memory with zero counters and any generator state, every weakly fair execution of the
  program on the TensorCores terminates and nothing faults; in every final state, on every device, the result array holds
  what the second kernel's write-backs leave on top of the contents the host operations before it produce (the last
  boundary's contents, read at the result buffer), and the three argument arrays hold what they held at launch.

  The run is the launch over the program's three segments (first kernel, host operations, second kernel) with the last
  thread state "every unscoped buffer at the last boundary's contents"; the result buffer is one of the unscoped buffers,
  so the final state is read at it as it is read at the arguments.
-/
import proofs.«155889_j28338194219464_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the launch lemma's implicit arguments are found by unifying its conclusion with this one, which takes unfolding
-- plain definitions in a metavariable's type
set_option backward.isDefEq.respectTransparency.types false in
/-- Every weakly fair execution terminates without fault; the result array ends at the last boundary's contents and the
    arguments end as launched. -/
theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.RunV

end
-- ==== Proof.Spec.lean ====
/-
  The mathematics of the two programs, over the extended reals, with no program in sight.

  The arrays: x of shape [8, 8192, 512], w of shape [512, 128], p of shape [128].
  The pooled projection is computed in two ways.

  * Mean first (`meanFirst`): for each batch b and feature d the 8192 rows of x are summed in two halves of
    4096 rows, the halves are added to zero one after the other, and the total is multiplied by 2⁻¹³
    (`pooled`); the pooled row is then contracted with w over d and the result multiplied by p.
  * Projection first (`projFirst`): every row of x is contracted with w over d, the 8192 results are summed
    from zero, the sum is divided by 8192, and the quotient multiplied by p.

  Both are the same extended real when every entry of x and of w is a real number (`meanFirst_eq_projFirst`,
  in the module that proves the law); with an infinite entry the two arrangements may differ, which is why the
  law is stated under finiteness.
-/
import Idealize.ShloMosaic.PureOps.Ideal
import Idealize.ShloMosaic.Lib.ValueIdx

noncomputable section

namespace Cert.PooledProj

open Idealize.ShloMosaic Idealize.ShloMosaic.ValueIdx

/-- The shapes of x, w, p, of the pooled rows and of the result. -/
abbrev SX : Shape := ⟨3, ![8, 8192, 512]⟩
abbrev SW : Shape := ⟨2, ![512, 128]⟩
abbrev SP : Shape := ⟨1, ![128]⟩
abbrev SM : Shape := ⟨3, ![8, 1, 512]⟩
abbrev SO : Shape := ⟨3, ![8, 8192, 128]⟩

/-- The float words the programs share: zero, 2⁻¹³ and 8192. -/
abbrev zeroW : EReal := Ideal.ofBits .f32 0x00000000#32
abbrev invW : EReal := Ideal.ofBits .f32 0x39000000#32
abbrev lenW : EReal := Ideal.ofBits .f32 0x46000000#32

/-- Row r of half h of the sequence axis: row 4096·h + r. -/
def seqRow (h : Fin 2) (r : Fin 4096) : Fin 8192 :=
  ⟨4096 * h.val + r.val, by have := h.isLt; have := r.isLt; omega⟩

/-- The sum of one half of the sequence, for batch b and feature d. -/
def halfSum (x : SX.Idx → EReal) (b : Fin 8) (h : Fin 2) (d : Fin 512) : EReal :=
  ∑ r : Fin 4096, x (ix3 b (seqRow h r) d)

/-- The pooled row: the two halves added to zero in order, times 2⁻¹³. -/
def pooled (x : SX.Idx → EReal) (b : Fin 8) (d : Fin 512) : EReal :=
  ((zeroW + halfSum x b 0 d) + halfSum x b 1 d) * invW

/-- Mean first: the pooled row contracted with w, times p. -/
def meanFirst (x : SX.Idx → EReal) (w : SW.Idx → EReal) (p : SP.Idx → EReal) (b : Fin 8) (r : Fin 128) : EReal :=
  (∑ d : Fin 512, pooled x b d * w (ix2 d r)) * p (ix1 r)

/-- Projection first: every row contracted with w, summed from zero, divided by 8192, times p. -/
def projFirst (x : SX.Idx → EReal) (w : SW.Idx → EReal) (p : SP.Idx → EReal) (b : Fin 8) (r : Fin 128) : EReal :=
  Ideal.div (zeroW + ∑ n : Fin 8192, ∑ d : Fin 512, x (ix3 b n d) * w (ix2 d r)) lenW * p (ix1 r)

/-- The result array, index by index: entry (b, n, r) does not depend on n. -/
def result (x : SX.Idx → EReal) (w : SW.Idx → EReal) (p : SP.Idx → EReal) : SO.Idx → EReal :=
  fun j => projFirst x w p ⟨(j 0).val, (j 0).isLt⟩ ⟨(j 2).val, (j 2).isLt⟩

theorem result_ix3 (x : SX.Idx → EReal) (w : SW.Idx → EReal) (p : SP.Idx → EReal) (b : Fin 8) (n : Fin 8192) (r : Fin 128) :
    result x w p (ix3 b n r) = projFirst x w p b r := rfl

/-- The same array computed mean first. -/
def resultMeanFirst (x : SX.Idx → EReal) (w : SW.Idx → EReal) (p : SP.Idx → EReal) : SO.Idx → EReal :=
  fun j => meanFirst x w p ⟨(j 0).val, (j 0).isLt⟩ ⟨(j 2).val, (j 2).isLt⟩

theorem resultMeanFirst_ix3 (x : SX.Idx → EReal) (w : SW.Idx → EReal) (p : SP.Idx → EReal) (b : Fin 8) (n : Fin 8192) (r : Fin 128) :
    resultMeanFirst x w p (ix3 b n r) = meanFirst x w p b r := rfl

/-- The pooled rows as an array of shape [8, 1, 512]. -/
def pooledArr (x : SX.Idx → EReal) : SM.Idx → EReal :=
  fun j => pooled x ⟨(j 0).val, (j 0).isLt⟩ ⟨(j 2).val, (j 2).isLt⟩

theorem pooledArr_ix3 (x : SX.Idx → EReal) (b : Fin 8) (z : Fin 1) (d : Fin 512) :
    pooledArr x (ix3 b z d) = pooled x b d := rfl

end Cert.PooledProj

end
-- ==== Proof.MeanValue.lean ====
/-
  What the first kernel — the reduction over the sequence axis — leaves in its result array, over the extended reals.

  The kernel runs on a grid of 8 × 2 points; point t = 2·b + h handles batch b and half h of the 8192 rows.  Its input
  block at that point is rows 4096·h … 4096·h + 4095 of batch b of the argument x of shape [8, 8192, 512]; its output
  block is row b of the result array of shape [8, 1, 512], kept in place between the two points of a batch and written
  back after the second.

  * At an even point the body stores the zero row, reads it back, and adds to it the sum over the 4096 rows of the input
    block: it leaves 0 + Σ_{first half} x.
  * At an odd point the body adds the sum over the 4096 rows of its input block to what the point before left, reads the
    total back and multiplies it by the word 0x39000000: it leaves ((0 + Σ_{first half} x) + Σ_{second half} x) · 2⁻¹³.

  So what the odd point 2·b + 1 writes back is, lane by lane, the pooled row of batch b, and since the eight blocks
  written back tile the result array, the array ends holding the pooled rows (`mean_final`).  No induction over the grid
  is needed: an odd point looks one point back only.
-/
import proofs.«155889_j28338194219464_2_alg».proof.Proof.Spec
import proofs.«155889_j28338194219464_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.MeanValue

open Cert.KernelIdeal Cert.KernelIdeal.Gen

/-! ## The two cases of the body, for any float instance -/

section AnyF
variable {F : FTy → Type} [FloatOps F]

/-- The three zero offsets, however spelt, are the zero function. -/
theorem hz : (![0, 0, 0] : Fin 3 → Nat) = fun _ => 0 := funext fun a => by fin_cases a <;> rfl

/-- At a point of the first half of the sequence the body stores the zero row, reads it back, and leaves the zero row plus
    the row sums of the input block. -/
theorem out_A (c : Dev nD) (i : grid0.Coords) (a2 : Memref sig .tc .vmem S1x4096x512 .f32) (h2 : a2.IsWhole)
    (a3 : Memref sig .tc .vmem S1x1x512 .f32) (h3 : a3.IsWhole) (hc0 : cond0_0 i) (hc1 : ¬cond0_1 i)
    (x0 : Vec F S1x4096x512 .f32) :
    out0_A_1 c i a2 h2 a3 h3 hc0 hc1 x0 = k0_pay2 (k0_pay1 (F := F)) x0 := by
  unfold out0_A_1
  rw [View.read_writes_eq_canon _ _ _ (cover0_A_1 c i a2 h2 a3 h3 hc0 hc1 x0)]
  unfold kernelRun0_A
  dsimp only
  sl_unfold_words
  rw [View.canon_cons_unit_zero (S := S1x1x512) hz, View.readCov_unit_zero (S := S1x1x512) _ hz]
  simp only [View.readAt_eq_ld, h2.read_unread, View.ld_unit_zero (S := S1x4096x512) hz]

/-- At a point of the second half the body adds the row sums of the input block to what the point before left, reads the
    total back, and leaves it scaled. -/
theorem out_B (c : Dev nD) (i : grid0.Coords) (a2 : Memref sig .tc .vmem S1x4096x512 .f32) (h2 : a2.IsWhole)
    (a3 : Memref sig .tc .vmem S1x1x512 .f32) (h3 : a3.IsWhole) (hc0 : ¬cond0_0 i) (hc1 : cond0_1 i)
    (x0 : Vec F S1x4096x512 .f32) (xo : Vec F S1x1x512 .f32) :
    out0_B_1 c i a2 h2 a3 h3 hc0 hc1 x0 xo = k0_pay3 (k0_pay2 xo x0) := by
  unfold out0_B_1
  rw [View.read_writes_eq_canon _ _ _ (cover0_B_1 c i a2 h2 a3 h3 hc0 hc1 x0 xo)]
  unfold kernelRun0_B
  dsimp only
  sl_unfold_words
  rw [View.canon_cons_unit_zero (S := S1x1x512) hz, View.readCov_unit_zero (S := S1x1x512) _ hz]
  simp only [View.readAt_eq_ld, h2.read_unread, h3.read_unread, View.ld_unit_zero (S := S1x4096x512) hz,
    View.ld_unit_zero (S := S1x1x512) hz]

end AnyF

/-! ## The payloads at an index, over the extended reals -/

open Idealize.ShloMosaic.ValueIdx

/-- The zero row reads the zero word everywhere. -/
theorem pay1_apply (j : S1x1x512.Idx) : k0_pay1 (F := Ideal) j = Ideal.ofBits .f32 0x00000000#32 := rfl

/-- The row sum over axis 1 of a [1, 4096, 512] block, at lane d. -/
theorem rowsum_apply (v5 : FVec Ideal S1x4096x512 .f32)
    (hacc : (0x00000000#32 : BitVec 32) = 0x00000000#32) (d : Fin 512) :
    multiReduction (F := Ideal) .add [1] S1x512 v5 0x00000000#32 reduces_S1x4096x512_S1x512 (.inl rfl) hacc (ix2 (0 : Fin 1) d)
      = ∑ r : Fin 4096, v5 (ix3 (0 : Fin 1) r d) := by
  refine (Ideal.multiReduction_add_single v5 0x00000000#32 reduces_S1x4096x512_S1x512 (.inl rfl) hacc (ix2 (0 : Fin 1) d)).trans ?_
  show ∑ r : Fin 4096, v5 (reduces_S1x4096x512_S1x512.lift (ix2 (0 : Fin 1) d) r) = _
  refine Finset.sum_congr rfl fun r _ => congrArg v5 ?_
  funext a
  match a with
  | ⟨0, _⟩ => rfl
  | ⟨1, _⟩ => rfl
  | ⟨2, _⟩ => rfl

/-- The accumulating payload at lane d: what was there plus the row sum of the block. -/
theorem pay2_apply (v3 : Vec Ideal S1x1x512 .f32) (v5 : Vec Ideal S1x4096x512 .f32) (d : Fin 512) :
    k0_pay2 (F := Ideal) v3 v5 (ix3 (0 : Fin 1) (0 : Fin 1) d)
      = v3 (ix3 (0 : Fin 1) (0 : Fin 1) d) + ∑ r : Fin 4096, v5 (ix3 (0 : Fin 1) r d) := by
  unfold k0_pay2
  show shapeCast S1x1x512 v3 shapeCasts_S1x1x512_S1x1x512 (ix3 (0 : Fin 1) (0 : Fin 1) d)
      + shapeCast S1x1x512 (multiReduction (F := Ideal) .add [1] S1x512 v5 0x00000000#32 reduces_S1x4096x512_S1x512 (.inl rfl) rfl)
          shapeCasts_S1x512_S1x1x512 (ix3 (0 : Fin 1) (0 : Fin 1) d) = _
  rw [shapeCast_self]
  refine congrArg (v3 (ix3 (0 : Fin 1) (0 : Fin 1) d) + ·) ?_
  refine (shapeCast_ab_1ab_apply _ shapeCasts_S1x512_S1x1x512 (0 : Fin 1) (0 : Fin 1) d).trans ?_
  exact rowsum_apply v5 rfl d

/-- The scaling payload at lane d: the element times the word 0x39000000. -/
theorem pay3_apply (v : Vec Ideal S1x1x512 .f32) (j : S1x1x512.Idx) :
    k0_pay3 (F := Ideal) v j = v j * Ideal.ofBits .f32 0x39000000#32 := by
  unfold k0_pay3
  show shapeCast S1x1x512 v shapeCasts_S1x1x512_S1x1x512 j * _ = _
  rw [shapeCast_self]
  rfl

/-! ## The blocks of the two windows -/

section Blocks
variable (V : (c : Dev nD) → (b : Ref sig .tc) → Buf (Elt Ideal) ((c : Thread nD τ).loc b))

/-- The input window's block index at point t is (t / 2, t % 2, 0): decided over the grid. -/
theorem index0 : ∀ t : Fin cfg0.N, win0_0.index t 0 = t.val / 2 ∧ win0_0.index t 1 = t.val % 2 ∧ win0_0.index t 2 = 0 :=
  (by decide +kernel : ∀ t : Fin grid0.N, win0_0.index t 0 = t.val / 2 ∧ win0_0.index t 1 = t.val % 2 ∧ win0_0.index t 2 = 0)

/-- The output window's block index at point t is (t / 2, 0, 0): decided over the grid. -/
theorem index1 : ∀ t : Fin cfg0.N, win0_1.index t 0 = t.val / 2 ∧ win0_1.index t 1 = 0 ∧ win0_1.index t 2 = 0 :=
  (by decide +kernel : ∀ t : Fin grid0.N, win0_1.index t 0 = t.val / 2 ∧ win0_1.index t 1 = 0 ∧ win0_1.index t 2 = 0)

/-- The input block at point t = 2b + h reads, at (0, r, d), the array at (b, 4096·h + r, d). -/
theorem iblk_apply (c : Dev nD) (t : Fin cfg0.N) (b : Fin 8) (h : Fin 2) (ht : t.val = 2 * b.val + h.val)
    (r : Fin 4096) (d : Fin 512) :
    (iblk0 V c 0 t : Vec Ideal S1x4096x512 .f32) (ix3 (0 : Fin 1) r d)
      = (V c main_arg0 : Cert.PooledProj.SX.Idx → EReal) (ix3 b (Cert.PooledProj.seqRow h r) d) := by
  have hi := index0 t
  have hh := h.isLt
  unfold iblk0
  rw [View.read_apply]
  show V c main_arg0 _ = V c main_arg0 _
  congr 1
  funext a
  apply Fin.ext
  match a with
  | ⟨0, _⟩ => show win0_0.index t 0 * 1 + 1 * 0 = b.val; rw [hi.1]; omega
  | ⟨1, _⟩ => show win0_0.index t 1 * 4096 + 1 * r.val = 4096 * h.val + r.val; rw [hi.2.1]; omega
  | ⟨2, _⟩ => show win0_0.index t 2 * 512 + 1 * d.val = d.val; rw [hi.2.2]; omega

end Blocks

/-! ## The staging buffer after an odd point: the pooled row -/

section Pooled
variable (V : (c : Dev nD) → (b : Ref sig .tc) → Buf (Elt Ideal) ((c : Thread nD τ).loc b))

open Cert.PooledProj in
/-- A block that reads the array at the rows of half h has, at lane d, that half's sum as its row sum. -/
theorem halfSum_of_block (x0 : FVec Ideal S1x4096x512 .f32) (y : SX.Idx → EReal) (b : Fin 8) (h : Fin 2) (d : Fin 512)
    (hx : ∀ r : Fin 4096, x0 (ix3 (0 : Fin 1) r d) = y (ix3 b (seqRow h r) d)) :
    ∑ r : Fin 4096, x0 (ix3 (0 : Fin 1) r d) = halfSum y b h d :=
  Finset.sum_congr rfl fun r _ => hx r

open Cert.PooledProj in
/-- After the odd point t = 2b + 1 the output's staging buffer holds, at lane d, the zero word plus the sum of the first half
    of the rows plus the sum of the second half, times the word 0x39000000: the pooled row of batch b. -/
theorem outsAt_odd (c : Dev nD) (t : Fin cfg0.N) (b : Fin 8) (ht : t.val = 2 * b.val + 1) (d : Fin 512) :
    outsAt0 V c t.val t.isLt (ix3 (0 : Fin 1) (0 : Fin 1) d)
      = pooled (V c main_arg0 : SX.Idx → EReal) b d := by
  have hN : cfg0.N = 16 := N_0
  have h0 : ¬t.val % 2 = 0 := by omega
  have h1 : t.val % 2 = 1 := by omega
  have hp : t.val - 1 < cfg0.N := Nat.lt_of_le_of_lt (Nat.sub_le _ _) t.isLt
  have e : outsAt0 V c (t.val - 1) hp = k0_pay2 (k0_pay1 (F := Ideal)) (iblk0 V c 0 ⟨t.val - 1, hp⟩) :=
    (outsAt0_A V c ⟨t.val - 1, hp⟩ (by show (t.val - 1) % 2 = 0; omega) (by show ¬(t.val - 1) % 2 = 1; omega)).trans (out_A ..)
  have s0 := halfSum_of_block (iblk0 V c 0 ⟨t.val - 1, hp⟩) (V c main_arg0) b 0 d
    fun r => iblk_apply V c ⟨t.val - 1, hp⟩ b 0 (by show t.val - 1 = 2 * b.val + (0 : Fin 2).val; simp; omega) r d
  have s1 := halfSum_of_block (iblk0 V c 0 t) (V c main_arg0) b 1 d
    fun r => iblk_apply V c t b 1 (by show t.val = 2 * b.val + (1 : Fin 2).val; simp; omega) r d
  rw [outsAt0_B V c t h0 h1, out_B, e, pay3_apply, pay2_apply, pay2_apply, pay1_apply, s0, s1]
  rfl

end Pooled

/-! ## The result array after the run -/

section Final
variable (V : (c : Dev nD) → (b : Ref sig .tc) → Buf (Elt Ideal) ((c : Thread nD τ).loc b))

open Cert.PooledProj in
/-- What an odd point t = 2b + 1 writes back is row b of the pooled array, read through the point's block. -/
theorem flushed_eq (c : Dev nD) (t : Fin cfg0.N) (hf : (cfg0.win 1).flush t = true) :
    (dat0 V c).flushed 1 t
      = ((cfg0.win 1).blk t).view.read (Elt Ideal) (pooledArr (V c main_arg0 : SX.Idx → EReal)) := by
  have hN : cfg0.N = 16 := N_0
  have h1 : t.val % 2 = 1 := (flush0_1 t).mp hf
  have hi := index1 t
  have hlt := t.isLt
  obtain ⟨b, hb⟩ : ∃ b : Fin 8, t.val = 2 * b.val + 1 := ⟨⟨t.val / 2, by omega⟩, by show t.val = 2 * (t.val / 2) + 1; omega⟩
  show (cfg0.win 1).cut (grid0.coords t) ((dat0 V c).after 1 t) = _
  rw [after0_1]
  funext j
  obtain ⟨u, z, d, rfl⟩ : ∃ (u : Fin 1) (z : Fin 1) (d : Fin 512), j = ix3 u z d := ⟨j 0, j 1, j 2, eq_ix3 j⟩
  have hL : (cfg0.win 1).cut (grid0.coords t) (outsAt0 V c t.val t.isLt) (ix3 u z d)
      = outsAt0 V c t.val t.isLt (ix3 (0 : Fin 1) (0 : Fin 1) d) := by
    show outsAt0 V c t.val t.isLt _ = _
    congr 1
    funext a
    apply Fin.ext
    match a with
    | ⟨0, _⟩ => show u.val = 0; omega
    | ⟨1, _⟩ => show z.val = 0; omega
    | ⟨2, _⟩ => rfl
  have hR : ((cfg0.win 1).blk t).view.emb (ix3 u z d) = (ix3 b (0 : Fin 1) d : SM.Idx) := by
    funext a
    apply Fin.ext
    match a with
    | ⟨0, _⟩ => show win0_1.index t 0 * 1 + 1 * u.val = b.val; rw [hi.1]; omega
    | ⟨1, _⟩ => show win0_1.index t 1 * 1 + 1 * z.val = 0; rw [hi.2.1]; omega
    | ⟨2, _⟩ => show win0_1.index t 2 * 512 + 1 * d.val = d.val; rw [hi.2.2]; omega
  rw [hL, outsAt_odd V c t b hb d, View.read_apply, hR]
  rfl

open Cert.PooledProj in
/-- Every index (b, 0, d) of the result array lies in the block the odd point 2b + 1 writes back. -/
theorem cover (c : Dev nD) (i : ((cfg0.win 1).arr.view.loc (c.tc : Thread nD τ)).2.ty.Idx) :
    ∃ t : Fin cfg0.N, (cfg0.win 1).flush t = true ∧ i ∈ ((cfg0.win 1).blk t).view.set := by
  have hN : cfg0.N = 16 := N_0
  have h0 : (i 0 : Nat) < 8 := (i 0).isLt
  have h1 : (i 1 : Nat) < 1 := (i 1).isLt
  have h2 : (i 2 : Nat) < 512 := (i 2).isLt
  have ht : 2 * (i 0 : Nat) + 1 < cfg0.N := by omega
  have hi := index1 ⟨2 * (i 0 : Nat) + 1, ht⟩
  refine ⟨⟨2 * (i 0 : Nat) + 1, ht⟩, (flush0_1 _).mpr (by show (2 * (i 0 : Nat) + 1) % 2 = 1; omega), ?_⟩
  show i ∈ ((View.whole main_v0).slice (win0_1.rect ⟨2 * (i 0 : Nat) + 1, ht⟩)).set
  rw [View.set_slice_whole, Rect.mem_set_unit]
  intro a
  match a with
  | ⟨0, _⟩ =>
    show win0_1.index ⟨2 * (i 0 : Nat) + 1, ht⟩ 0 * 1 ≤ (i 0 : Nat)
      ∧ (i 0 : Nat) < win0_1.index ⟨2 * (i 0 : Nat) + 1, ht⟩ 0 * 1 + 1
    rw [hi.1]; show (2 * (i 0 : Nat) + 1) / 2 * 1 ≤ (i 0 : Nat) ∧ (i 0 : Nat) < (2 * (i 0 : Nat) + 1) / 2 * 1 + 1; omega
  | ⟨1, _⟩ =>
    show win0_1.index ⟨2 * (i 0 : Nat) + 1, ht⟩ 1 * 1 ≤ (i 1 : Nat)
      ∧ (i 1 : Nat) < win0_1.index ⟨2 * (i 0 : Nat) + 1, ht⟩ 1 * 1 + 1
    rw [hi.2.1]; omega
  | ⟨2, _⟩ =>
    show win0_1.index ⟨2 * (i 0 : Nat) + 1, ht⟩ 2 * 512 ≤ (i 2 : Nat)
      ∧ (i 2 : Nat) < win0_1.index ⟨2 * (i 0 : Nat) + 1, ht⟩ 2 * 512 + 512
    rw [hi.2.2]; omega

end Final

/-- After the run the result array of the first kernel holds the pooled rows of its argument. -/
theorem mean_final (V : (c : Dev nD) → (b : Ref sig .tc) → Buf (Elt Ideal) ((c : Thread nD τ).loc b)) (c : Dev nD) :
    (dat0 V c).arrAt 1 cfg0.N = Cert.PooledProj.pooledArr (V c main_arg0) :=
  (dat0 V c).arrAt_eq_of_cover 1 _ (flushed_eq V c) (cover c)

end Cert.KernelIdeal.MeanValue

end
-- ==== Proof.ProjBody.lean ====
/-
  What the second kernel's body leaves in its output block, at any float instance.

  The body computes ONE value v of shape [1, 512, 128] from its three input blocks (the pooled row, the weight
  matrix, the scale row) and stores it sixteen times, trip k of the counted loop writing rows 512·k … 512·k + 511
  of the [1, 8192, 128] output block. So the block ends holding, at row n and lane r, the value v at row n mod 512
  and lane r: each stored piece is the restriction of that one function of the block index to the piece's
  rectangle, and the sixteen rectangles cover the block.
-/
import proofs.«155889_j28338194219464_2_alg».proof.Proof.Gen.KernelIdeal.Frame
import Idealize.ShloMosaic.Lib.Pipeline.Value
import Idealize.ShloMosaic.Lib.ValueIdx

noncomputable section

namespace Cert.KernelIdeal.ProjBody

open Idealize.ShloMosaic Idealize.ShloMosaic.TcCoe Idealize.SL.Sem Idealize.ShloMosaic.ValueIdx
open Cert.KernelIdeal Cert.KernelIdeal.Gen

variable {F : FTy → Type} [FloatOps F]

/-- Row n, lane r of the output block, as an index of the stored value: row n mod 512, lane r. -/
def chunkIdx (y : S1x8192x128.Idx) : S1x512x128.Idx :=
  ix3 (0 : Fin 1) (⟨(y 1).val % 512, Nat.mod_lt _ (by decide)⟩ : Fin 512) (⟨(y 2).val, (y 2).isLt⟩ : Fin 128)

/-- Trip k of the loop makes one store: the value, at rows 512·k onwards. -/
theorem trip_piece (𝒱 : Variants) (c : Dev nD) (bd : Option 𝒱.V) (i : grid1.Coords)
    (a1 : Memref sig .tc .vmem S1x1x512 .f32) (h1 : a1.IsWhole) (a2 : Memref sig .tc .vmem S512x128 .f32) (h2 : a2.IsWhole)
    (a3 : Memref sig .tc .vmem S1x128 .f32) (h3 : a3.IsWhole) (a4 : Memref sig .tc .vmem S1x8192x128 .f32) (h4 : a4.IsWhole)
    (v0 : Vec F S1x1x512 .f32) (v3 : Vec F S512x128 .f32) (v7 : Vec F S1x128 .f32) (k : Fin k1_t1_loop.trips) :
    tripL_k1_t1 (F := F) 𝒱 c bd i a1 h1 a2 h2 a3 h3 a4 h4 v0 v3 v7 k
      = [⟨Rect.unit (s := S1x8192x128) (k1_off1 k) S1x512x128.size (k1_off1_inb k), k1_pay1 v0 v3 v7⟩] := by
  unfold tripL_k1_t1 trip_k1_t1
  rfl

/-- An index of the piece stored by trip k, placed in the block and taken back modulo 512, is itself. -/
theorem chunkIdx_emb (k : Fin k1_t1_loop.trips)
    (x : (Rect.unit (s := S1x8192x128) (k1_off1 k) S1x512x128.size (k1_off1_inb k)).shape.Idx) :
    chunkIdx ((Rect.unit (s := S1x8192x128) (k1_off1 k) S1x512x128.size (k1_off1_inb k)).emb x) = x := by
  have e := k1_off1_eq k
  funext a
  apply Fin.ext
  have hx0 : (x 0).val < 1 := (x 0).isLt
  have hx1 : (x 1).val < 512 := (x 1).isLt
  match a with
  | ⟨0, _⟩ => show 0 = (x 0).val; omega
  | ⟨1, _⟩ =>
    have e1 : k1_off1 k 1 = 512 * k.val := congrFun e 1
    show (k1_off1 k 1 + 1 * (x 1).val) % 512 = (x 1).val
    omega
  | ⟨2, _⟩ =>
    have e2 : k1_off1 k 2 = 0 := congrFun e 2
    show k1_off1 k 2 + 1 * (x 2).val = (x 2).val
    omega

/-- Every piece the first n trips store is the restriction of one function of the block index. -/
theorem pieces_agree (𝒱 : Variants) (c : Dev nD) (bd : Option 𝒱.V) (i : grid1.Coords)
    (a1 : Memref sig .tc .vmem S1x1x512 .f32) (h1 : a1.IsWhole) (a2 : Memref sig .tc .vmem S512x128 .f32) (h2 : a2.IsWhole)
    (a3 : Memref sig .tc .vmem S1x128 .f32) (h3 : a3.IsWhole) (a4 : Memref sig .tc .vmem S1x8192x128 .f32) (h4 : a4.IsWhole)
    (v0 : Vec F S1x1x512 .f32) (v3 : Vec F S512x128 .f32) (v7 : Vec F S1x128 .f32) :
    ∀ (n : ℕ), ∀ p ∈ pb_k1_t1 (F := F) 𝒱 c bd i a1 h1 a2 h2 a3 h3 a4 h4 v0 v3 v7 n,
      ∀ x : p.1.shape.Idx, p.2 x = k1_pay1 v0 v3 v7 (chunkIdx (p.1.emb x))
  | 0 => fun p hp => absurd hp List.not_mem_nil
  | n + 1 => fun p hp x => by
    rw [pb_k1_t1.eq_2] at hp
    unfold pb_k1_t1Step at hp
    by_cases h : n < k1_t1_loop.trips
    · rw [dif_pos h, trip_piece, List.singleton_append, List.mem_cons] at hp
      rcases hp with rfl | hp
      · exact (congrArg (k1_pay1 v0 v3 v7) (chunkIdx_emb ⟨n, h⟩ x)).symm
      · exact pieces_agree 𝒱 c bd i a1 h1 a2 h2 a3 h3 a4 h4 v0 v3 v7 n p hp x
    · rw [dif_neg h] at hp
      exact pieces_agree 𝒱 c bd i a1 h1 a2 h2 a3 h3 a4 h4 v0 v3 v7 n p hp x

theorem hz3 : (![0, 0, 0] : Fin 3 → Nat) = fun _ => 0 := funext fun a => by fin_cases a <;> rfl
theorem hz2 : (![0, 0] : Fin 2 → Nat) = fun _ => 0 := funext fun a => by fin_cases a <;> rfl

/-- The output block after the body: at each index, the stored value at the index modulo 512 rows. -/
theorem out_eq (c : Dev nD) (i : grid1.Coords)
    (a1 : Memref sig .tc .vmem S1x1x512 .f32) (h1 : a1.IsWhole) (a2 : Memref sig .tc .vmem S512x128 .f32) (h2 : a2.IsWhole)
    (a3 : Memref sig .tc .vmem S1x128 .f32) (h3 : a3.IsWhole) (a4 : Memref sig .tc .vmem S1x8192x128 .f32) (h4 : a4.IsWhole)
    (x0 : Vec F S1x1x512 .f32) (x1 : Vec F S512x128 .f32) (x2 : Vec F S1x128 .f32) (y : S1x8192x128.Idx) :
    out1_A_3 c i a1 h1 a2 h2 a3 h3 a4 h4 x0 x1 x2 y = k1_pay1 x0 x1 x2 (chunkIdx y) := by
  have hcov := cover1_A_3 c i a1 h1 a2 h2 a3 h3 a4 h4 x0 x1 x2
  unfold out1_A_3
  rw [View.read_writes_eq_canon _ _ _ hcov]
  have hy := hcov y
  unfold kernelRun1_A at hy ⊢
  dsimp only at hy ⊢
  simp only [View.readAt_eq_ld, h1.read_unread, h2.read_unread, h3.read_unread,
    View.ld_unit_zero (S := S1x1x512) hz3, View.ld_unit_zero (S := S512x128) hz2, View.ld_unit_zero (S := S1x128) hz2] at hy ⊢
  exact View.canon_apply_of_pieces (fun y => k1_pay1 x0 x1 x2 (chunkIdx y)) _
    (pieces_agree _ c _ i a1 h1 a2 h2 a3 h3 a4 h4 x0 x1 x2 _) y hy

end Cert.KernelIdeal.ProjBody

end
-- ==== Proof.ProjPayload.lean ====
/-
  The second kernel's stored value, read at an index, over the extended reals.

  From the pooled row m of shape [1, 1, 512], the weight matrix w of shape [512, 128] and the scale row p of shape
  [1, 128] the body forms m·w (a [1, 512] by [512, 128] matrix product into a zero accumulator; the roundings to a
  shorter float format on the way in are the identity over the extended reals), multiplies it entry by entry with p,
  repeats the resulting row 512 times and views the [512, 128] array as [1, 512, 128]. So at row q and lane r the
  stored value is (Σ_d m[0, 0, d] · w[d, r]) · p[0, r], whatever q.
-/
import proofs.«155889_j28338194219464_2_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.ProjPayload

open Idealize.ShloMosaic Idealize.ShloMosaic.ValueIdx Cert.KernelIdeal Cert.KernelIdeal.Gen

/-- The operand indices of the matrix product at output entry i and contraction index q, coordinate by coordinate:
    the left operand is read at (i 0, q), the right operand at (q, i 1). -/
theorem lhs_row (i : S1x128.Idx) (q : dot_S1x512_S512x128_S1x128_1_0_0_1_n_n.contr.Idx) : (dot_S1x512_S512x128_S1x128_1_0_0_1_n_n.lhsIdx i q 0).val = (i 0).val := by
  unfold DotDims.lhsIdx
  rw [dif_neg (show ¬(0 : Fin S1x512.rank) ∈ dot_S1x512_S512x128_S1x128_1_0_0_1_n_n.lhsBatch by decide),
    dif_pos (show (0 : Fin S1x512.rank) ∈ dot_S1x512_S512x128_S1x128_1_0_0_1_n_n.lhsNonContracting by decide)]
  rfl
theorem lhs_col (i : S1x128.Idx) (q : dot_S1x512_S512x128_S1x128_1_0_0_1_n_n.contr.Idx) : (dot_S1x512_S512x128_S1x128_1_0_0_1_n_n.lhsIdx i q 1).val = (q ⟨0, by decide⟩).val :=
  dot_S1x512_S512x128_S1x128_1_0_0_1_n_n.lhsIdx_val_of_single rfl i q
theorem rhs_row (i : S1x128.Idx) (q : dot_S1x512_S512x128_S1x128_1_0_0_1_n_n.contr.Idx) : (dot_S1x512_S512x128_S1x128_1_0_0_1_n_n.rhsIdx i q 0).val = (q ⟨0, by decide⟩).val :=
  dot_S1x512_S512x128_S1x128_1_0_0_1_n_n.rhsIdx_val_of_single rfl i q
theorem rhs_col (i : S1x128.Idx) (q : dot_S1x512_S512x128_S1x128_1_0_0_1_n_n.contr.Idx) : (dot_S1x512_S512x128_S1x128_1_0_0_1_n_n.rhsIdx i q 1).val = (i 1).val := by
  unfold DotDims.rhsIdx
  rw [dif_neg (show ¬(1 : Fin S512x128.rank) ∈ dot_S1x512_S512x128_S1x128_1_0_0_1_n_n.rhsBatch by decide),
    dif_pos (show (1 : Fin S512x128.rank) ∈ dot_S1x512_S512x128_S1x128_1_0_0_1_n_n.rhsNonContracting by decide)]
  rfl

/-- The matrix product into the zero accumulator, at row 0 and column r: the sum over the 512 features of the
    products of the operands' entries. -/
theorem dot_at (l : FVec Ideal S1x512 .bf16) (w : FVec Ideal S512x128 .bf16) (r : Fin 128) :
    matmul dot_S1x512_S512x128_S1x128_1_0_0_1_n_n none l w (constant S1x128 .f32 0x00000000#32) (ix2 (0 : Fin 1) r)
      = ∑ d : Fin 512, l (ix2 (0 : Fin 1) d) * w (ix2 d r) := by
  simp only [matmul]
  rw [Ideal.matmul_constant_zero_apply, ← Equiv.sum_comp (contrEquiv1 dot_S1x512_S512x128_S1x128_1_0_0_1_n_n 512 rfl rfl).symm]
  refine Finset.sum_congr rfl fun k _ => ?_
  have hk := contrEquiv1_symm_val dot_S1x512_S512x128_S1x128_1_0_0_1_n_n 512 rfl rfl k
  have el : dot_S1x512_S512x128_S1x128_1_0_0_1_n_n.lhsIdx (ix2 (0 : Fin 1) r) ((contrEquiv1 dot_S1x512_S512x128_S1x128_1_0_0_1_n_n 512 rfl rfl).symm k) = ix2 (0 : Fin 1) k :=
    funext fun a => Fin.ext (by
      match a with
      | ⟨0, _⟩ => exact lhs_row _ _
      | ⟨1, _⟩ => exact (lhs_col _ _).trans hk)
  have er : dot_S1x512_S512x128_S1x128_1_0_0_1_n_n.rhsIdx (ix2 (0 : Fin 1) r) ((contrEquiv1 dot_S1x512_S512x128_S1x128_1_0_0_1_n_n 512 rfl rfl).symm k) = ix2 k r :=
    funext fun a => Fin.ext (by
      match a with
      | ⟨0, _⟩ => exact (rhs_row _ _).trans hk
      | ⟨1, _⟩ => exact rhs_col _ _)
  rw [el, er]

/-- The stored value at row q and lane r. -/
theorem pay_at (x0 : Vec Ideal S1x1x512 .f32) (x1 : Vec Ideal S512x128 .f32) (x2 : Vec Ideal S1x128 .f32)
    (q : Fin 512) (r : Fin 128) :
    k1_pay1 x0 x1 x2 (ix3 (0 : Fin 1) q r)
      = (∑ d : Fin 512, x0 (ix3 (0 : Fin 1) (0 : Fin 1) d) * x1 (ix2 d r)) * x2 (ix2 (0 : Fin 1) r) := by
  unfold k1_pay1
  refine (shapeCast_ab_1ab_apply _ _ (0 : Fin 1) q r).trans ?_
  refine (broadcastTo_1b_ab_apply _ _ q r).trans ?_
  simp only [shapeCast_self]
  refine (mulf_apply _ _ _).trans ?_
  refine congrArg (· * x2 (ix2 (0 : Fin 1) r)) ?_
  refine (dot_at _ _ r).trans ?_
  refine Finset.sum_congr rfl fun d _ => ?_
  refine congrArg (· * x1 (ix2 d r)) ?_
  exact shapeCast_1ab_ab_apply x0 _ (0 : Fin 1) d

end Cert.KernelIdeal.ProjPayload

end
-- ==== Proof.ProjValue.lean ====
/-
  What the second kernel leaves in its result array, over the extended reals, as a function of the contents of its
  three operand arrays when the kernel is entered.

  The grid has eight points, one per batch b. At point b the pooled-row window holds row b of the [8, 1, 512] array
  M, the weight and scale windows hold the whole of W ([512, 128]) and P ([1, 128]), and the output window is block
  b of the [8, 8192, 128] result: all 8192 rows of batch b. The body leaves in it, at row n and lane r,
  (Σ_d M[b, 0, d] · W[d, r]) · P[0, r]; every point writes its block back, and the eight blocks cover the result.
-/
import proofs.«155889_j28338194219464_2_alg».proof.Proof.ProjBody
import proofs.«155889_j28338194219464_2_alg».proof.Proof.ProjPayload

noncomputable section

namespace Cert.KernelIdeal.ProjValue

open Idealize.ShloMosaic Idealize.ShloMosaic.TcCoe Idealize.SL.Sem Idealize.ShloMosaic.ValueIdx
open Idealize.ShloMosaic.Pipeline (Dat)
open Cert.KernelIdeal Cert.KernelIdeal.Gen

/-- The array the second kernel computes from M, W and P: entry (b, n, r) is (Σ_d M[b, 0, d] · W[d, r]) · P[0, r]. -/
def projArr (M : S8x1x512.Idx → EReal) (W : S512x128.Idx → EReal) (P : S1x128.Idx → EReal) : S8x8192x128.Idx → EReal :=
  fun j => (∑ d : Fin 512, M (ix3 (⟨(j 0).val, (j 0).isLt⟩ : Fin 8) (0 : Fin 1) d) * W (ix2 d (⟨(j 2).val, (j 2).isLt⟩ : Fin 128)))
    * P (ix2 (0 : Fin 1) (⟨(j 2).val, (j 2).isLt⟩ : Fin 128))

/-- The output block after the body, at an index, from the three input blocks. -/
theorem out_at (c : Dev nD) (i : grid1.Coords)
    (a1 : Memref sig .tc .vmem S1x1x512 .f32) (h1 : a1.IsWhole) (a2 : Memref sig .tc .vmem S512x128 .f32) (h2 : a2.IsWhole)
    (a3 : Memref sig .tc .vmem S1x128 .f32) (h3 : a3.IsWhole) (a4 : Memref sig .tc .vmem S1x8192x128 .f32) (h4 : a4.IsWhole)
    (x0 : Vec Ideal S1x1x512 .f32) (x1 : Vec Ideal S512x128 .f32) (x2 : Vec Ideal S1x128 .f32) (y : S1x8192x128.Idx) :
    out1_A_3 c i a1 h1 a2 h2 a3 h3 a4 h4 x0 x1 x2 y
      = (∑ d : Fin 512, x0 (ix3 (0 : Fin 1) (0 : Fin 1) d) * x1 (ix2 d (⟨(y 2).val, (y 2).isLt⟩ : Fin 128)))
        * x2 (ix2 (0 : Fin 1) (⟨(y 2).val, (y 2).isLt⟩ : Fin 128)) :=
  (ProjBody.out_eq c i a1 h1 a2 h2 a3 h3 a4 h4 x0 x1 x2 y).trans (ProjPayload.pay_at x0 x1 x2 _ _)

/-- The block indices of the four windows, decided once over the eight points: the pooled-row and output windows
    move with the batch, the weight and scale windows stay. -/
theorem idx_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

variable (V : (c : Dev nD) → (b : Ref sig .tc) → Buf (Elt Ideal) ((c : Thread nD τ).loc b))

/-- The pooled-row window at point t holds row t of M. -/
theorem blk0_at (c : Dev nD) (t : Fin cfg1.N) (ht : t.val < 8) (d : Fin 512) :
    (iblk1 V c 0 t : Vec Ideal S1x1x512 .f32) (ix3 (0 : Fin 1) (0 : Fin 1) d)
      = (V c main_v0 : S8x1x512.Idx → EReal) (ix3 (⟨t.val, ht⟩ : Fin 8) (0 : Fin 1) d) := by
  obtain ⟨e0, e1, e2, -⟩ := idx_facts t
  show (V c main_v0 : S8x1x512.Idx → EReal) (((cfg1.win 0).blk t).view.emb (ix3 (0 : Fin 1) (0 : Fin 1) d)) = _
  refine congrArg (V c main_v0 : S8x1x512.Idx → EReal) ?_
  funext a; apply Fin.ext
  match a with
  | ⟨0, _⟩ => show win1_0.index t (0 : Fin 3) * 1 + 1 * 0 = t.val; omega
  | ⟨1, _⟩ => show win1_0.index t (1 : Fin 3) * 1 + 1 * 0 = 0; omega
  | ⟨2, _⟩ => show win1_0.index t (2 : Fin 3) * 512 + 1 * d.val = d.val; omega

/-- The weight window holds the whole of W at every point. -/
theorem blk1_at (c : Dev nD) (t : Fin cfg1.N) (d : Fin 512) (r : Fin 128) :
    (iblk1 V c 1 t : Vec Ideal S512x128 .f32) (ix2 d r) = (V c main_arg1 : S512x128.Idx → EReal) (ix2 d r) := by
  obtain ⟨-, -, -, e0, e1, -⟩ := idx_facts t
  show (V c main_arg1 : S512x128.Idx → EReal) (((cfg1.win 1).blk t).view.emb (ix2 d r)) = _
  refine congrArg (V c main_arg1 : S512x128.Idx → EReal) ?_
  funext a; apply Fin.ext
  match a with
  | ⟨0, _⟩ => show win1_1.index t (0 : Fin 2) * 512 + 1 * d.val = d.val; omega
  | ⟨1, _⟩ => show win1_1.index t (1 : Fin 2) * 128 + 1 * r.val = r.val; omega

/-- The scale window holds the whole of P at every point. -/
theorem blk2_at (c : Dev nD) (t : Fin cfg1.N) (r : Fin 128) :
    (iblk1 V c 2 t : Vec Ideal S1x128 .f32) (ix2 (0 : Fin 1) r) = (V c main_v1 : S1x128.Idx → EReal) (ix2 (0 : Fin 1) r) := by
  obtain ⟨-, -, -, -, -, e0, e1, -⟩ := idx_facts t
  show (V c main_v1 : S1x128.Idx → EReal) (((cfg1.win 2).blk t).view.emb (ix2 (0 : Fin 1) r)) = _
  refine congrArg (V c main_v1 : S1x128.Idx → EReal) ?_
  funext a; apply Fin.ext
  match a with
  | ⟨0, _⟩ => show win1_2.index t (0 : Fin 2) * 1 + 1 * 0 = 0; omega
  | ⟨1, _⟩ => show win1_2.index t (1 : Fin 2) * 128 + 1 * r.val = r.val; omega

/-- What point t writes back is block t of the array computed from the operand arrays as the kernel finds them. -/
theorem flushed_eq (c : Dev nD) (t : Fin cfg1.N) :
    (dat1 V c).flushed 3 t
      = ((cfg1.win 3).blk t).view.read (Elt Ideal) (projArr (V c main_v0) (V c main_arg1) (V c main_v1)) := by
  have hN : t.val < 8 := lt_of_lt_of_eq t.isLt (show cfg1.N = 8 from N_1)
  obtain ⟨-, -, -, -, -, -, -, e0, e1, e2⟩ := idx_facts t
  show (cfg1.win 3).cut (grid1.coords t) ((dat1 V c).after 3 t) = _
  rw [after1_3]
  unfold outsAt1
  funext y
  have hy0 : (y 0).val < 1 := (y 0).isLt
  have hy2 : (y 2).val < 128 := (y 2).isLt
  show out1_A_3 c (grid1.coords t) (ms1_0 t) (hs1_0 t) (ms1_1 t) (hs1_1 t) (ms1_2 t) (hs1_2 t) (ms1_3 t) (hs1_3 t)
      (iblk1 V c 0 t) (iblk1 V c 1 t) (iblk1 V c 2 t) y
    = projArr (V c main_v0) (V c main_arg1) (V c main_v1) (((cfg1.win 3).blk t).view.emb y)
  refine (out_at c (grid1.coords t) (ms1_0 t) (hs1_0 t) (ms1_1 t) (hs1_1 t) (ms1_2 t) (hs1_2 t) (ms1_3 t) (hs1_3 t)
      (iblk1 V c 0 t) (iblk1 V c 1 t) (iblk1 V c 2 t) y).trans ?_
  unfold projArr
  have hb : (⟨((((cfg1.win 3).blk t).view.emb y) 0).val, ((((cfg1.win 3).blk t).view.emb y) 0).isLt⟩ : Fin 8) = ⟨t.val, hN⟩ :=
    Fin.ext (by show win1_3.index t (0 : Fin 3) * 1 + 1 * (y 0).val = t.val; omega)
  have hr : (⟨((((cfg1.win 3).blk t).view.emb y) 2).val, ((((cfg1.win 3).blk t).view.emb y) 2).isLt⟩ : Fin 128) = ⟨(y 2).val, hy2⟩ :=
    Fin.ext (by show win1_3.index t (2 : Fin 3) * 128 + 1 * (y 2).val = (y 2).val; omega)
  rw [hb, hr, blk2_at V c t]
  refine congrArg (· * (V c main_v1 : S1x128.Idx → EReal) (ix2 (0 : Fin 1) (⟨(y 2).val, hy2⟩ : Fin 128))) ?_
  refine Finset.sum_congr rfl fun d _ => ?_
  rw [blk0_at V c t hN, blk1_at V c t]

/-- The eight blocks cover the result array: index (b, n, r) lies in the block of point b. -/
theorem cover (i : S8x8192x128.Idx) :
    ∃ t : Fin cfg1.N, (cfg1.win 3).flush t = true ∧ i ∈ ((cfg1.win 3).blk t).view.set := by
  have hi0 : (i 0).val < 8 := (i 0).isLt
  have hi1 : (i 1).val < 8192 := (i 1).isLt
  have hi2 : (i 2).val < 128 := (i 2).isLt
  obtain ⟨t, ht⟩ : ∃ t : Fin cfg1.N, t.val = (i 0).val :=
    ⟨⟨(i 0).val, lt_of_lt_of_eq hi0 (show 8 = cfg1.N from N_1.symm)⟩, rfl⟩
  refine ⟨t, flush1_3 t, ?_⟩
  obtain ⟨-, -, -, -, -, -, -, e0, e1, e2⟩ := idx_facts t
  show i ∈ ((View.whole main_v2).slice (win1_3.rect t)).set
  rw [View.set_slice_whole, Rect.mem_set_unit]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 8192 ≤ (i 1).val ∧ (i 1).val < win1_3.index t (1 : Fin 3) * 8192 + 8192
    omega
  | ⟨2, _⟩ =>
    show win1_3.index t (2 : Fin 3) * 128 ≤ (i 2).val ∧ (i 2).val < win1_3.index t (2 : Fin 3) * 128 + 128
    omega

/-- The result array after the second kernel. -/
theorem proj_final (c : Dev nD) :
    (dat1 V c).arrAt 3 cfg1.N = projArr (V c main_v0) (V c main_arg1) (V c main_v1) :=
  (dat1 V c).arrAt_eq_of_cover 3 (projArr (V c main_v0) (V c main_arg1) (V c main_v1))
    (fun t _ => flushed_eq V c t) cover

end Cert.KernelIdeal.ProjValue

end
-- ==== Proof.KernelValue.lean ====
/-
  The idealized kernel's result array as one function of the three argument arrays.

  The program is the first kernel (the sequence axis reduced to the pooled rows, an [8, 1, 512] array), one host
  operation (p, of shape [128], viewed as [1, 128]), and the second kernel (the pooled rows contracted with w and
  scaled by p, repeated over the 8192 rows). Reading the buffer contents boundary by boundary: the second kernel
  finds the pooled rows where the first kernel's write-backs left them, w as launched (neither the first kernel nor
  the host operation writes it) and the [1, 128] view of p as launched; so the result array ends at the mean-first
  array of the specification.
-/
import proofs.«155889_j28338194219464_2_alg».proof.Proof.Spec
import proofs.«155889_j28338194219464_2_alg».proof.Proof.MeanValue
import proofs.«155889_j28338194219464_2_alg».proof.Proof.ProjValue
import Idealize.ShloMosaic.Lib.StableHlo.Run

noncomputable section

namespace Cert.KernelIdeal.KernelValue

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The host operation between the kernels writes neither the pooled rows nor w. -/
theorem keep_v0 (c : Dev nD) : W2 m ρ c (Proc.devRef .tc main_v0) = W1 m ρ c (Proc.devRef .tc main_v0) :=
  StableHlo.after_of_forall_not_mem (b := Proc.devRef .tc main_v0) _ _ (List.forall_iff_forall_mem.mp (by
    simp only [hostOps1, List.Forall, StableHlo.reshape_writes, Finset.mem_singleton]
    exact StableHlo.devRef_ne_of_ne (by decide)))
theorem keep_arg1 (c : Dev nD) : W2 m ρ c (Proc.devRef .tc main_arg1) = W1 m ρ c (Proc.devRef .tc main_arg1) :=
  StableHlo.after_of_forall_not_mem (b := Proc.devRef .tc main_arg1) _ _ (List.forall_iff_forall_mem.mp (by
    simp only [hostOps1, List.Forall, StableHlo.reshape_writes, Finset.mem_singleton]
    exact StableHlo.devRef_ne_of_ne (by decide)))

/-- The second kernel finds the pooled rows of x as launched. -/
theorem entry_v0 (c : Dev nD) :
    (V2 m ρ c main_v0 : S8x1x512.Idx → EReal) = Cert.PooledProj.pooledArr (m ((c.tc : Thread nD τ).loc main_arg0)) :=
  (keep_v0 m ρ c).trans ((W1_arr m ρ c 1).trans (MeanValue.mean_final (V0 m ρ) c))

/-- It finds w as launched. -/
theorem entry_arg1 (c : Dev nD) :
    (V2 m ρ c main_arg1 : S512x128.Idx → EReal) = m ((c.tc : Thread nD τ).loc main_arg1) :=
  (keep_arg1 m ρ c).trans (W1_of_ne m ρ c main_arg1 (by decide))

/-- It finds the [1, 128] view of p as launched. -/
theorem entry_v1 (c : Dev nD) :
    (V2 m ρ c main_v1 : S1x128.Idx → EReal)
      = shapeCast S1x128 (m ((c.tc : Thread nD τ).loc main_arg2)) shapeCasts_S128_S1x128 := by
  show StableHlo.after hostOps1 (W1 m ρ c) (Proc.devRef .tc main_v1) = _
  after_results
  rw [W1_of_ne m ρ c main_arg2 (by decide)]
  rfl

/-- The result array after the run: the mean-first array of the three argument arrays as launched. -/
theorem result_eq (c : Dev nD) :
    (W3 m ρ c (Proc.devRef .tc main_v2) : S8x8192x128.Idx → EReal)
      = Cert.PooledProj.resultMeanFirst (m ((c.tc : Thread nD τ).loc main_arg0)) (m ((c.tc : Thread nD τ).loc main_arg1))
          (m ((c.tc : Thread nD τ).loc main_arg2)) := by
  refine ((W3_arr m ρ c 3).trans (ProjValue.proj_final (V2 m ρ) c)).trans ?_
  rw [entry_v0, entry_arg1, entry_v1]
  funext j
  obtain ⟨b, n, r, rfl⟩ : ∃ (b : Fin 8) (n : Fin 8192) (r : Fin 128), j = ix3 b n r := ⟨j 0, j 1, j 2, eq_ix3 j⟩
  rw [Cert.PooledProj.resultMeanFirst_ix3]
  unfold Cert.PooledProj.meanFirst
  show (∑ d : Fin 512, Cert.PooledProj.pooledArr (m ((c.tc : Thread nD τ).loc main_arg0)) (ix3 b (0 : Fin 1) d)
        * (m ((c.tc : Thread nD τ).loc main_arg1) : S512x128.Idx → EReal) (ix2 d r))
      * shapeCast S1x128 (m ((c.tc : Thread nD τ).loc main_arg2)) shapeCasts_S128_S1x128 (ix2 (0 : Fin 1) r) = _
  rw [shapeCast_a_1a_apply]
  simp only [Cert.PooledProj.pooledArr_ix3]

end Cert.KernelIdeal.KernelValue

end
-- ==== Proof.RefValue.lean ====
/-
  The reference program's result, read one operation at a time, is the array of the specification.

  Entry (b, n, r) of the reference's last value is a product: the first factor is a quotient, read through two
  broadcasts that forget n, of a sum over the 8192 rows (started from the zero word) of the contraction of row k of x
  with column r of w over the 512 features, by the word 8192; the second factor is entry r of p, read through two
  broadcasts. Each index function the operations compose is, at an index given by its three coordinates, again an
  index given by coordinates, so the entry is literally the projection-first expression of the specification.
-/
import proofs.«155889_j28338194219464_2_alg».proof.Proof.Spec
import proofs.«155889_j28338194219464_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx
  Idealize.SL.Sem Idealize.ShloMosaic.StableHlo

/-- The left operand of the contraction at result entry (b, k, r) and feature d is entry (b, k, d) of x. -/
theorem lidx_at (b : Fin 8) (k : Fin 8192) (r : Fin 128) (d : Fin 512) :
    lidx_main_v0 (ix3 b k r) d = ix3 b k d :=
  funext fun a => Fin.ext (by match a with | ⟨0, _⟩ => rfl | ⟨1, _⟩ => rfl | ⟨2, _⟩ => rfl)

/-- The right operand of the contraction at result entry (b, k, r) and feature d is entry (d, r) of w. -/
theorem ridx_at (b : Fin 8) (k : Fin 8192) (r : Fin 128) (d : Fin 512) :
    ridx_main_v0 (ix3 b k r) d = ix2 d r :=
  funext fun a => Fin.ext (by match a with | ⟨0, _⟩ => rfl | ⟨1, _⟩ => rfl)

/-- Row k of the sum read for result entry (b, n, r), through the two broadcasts that forget n, is entry (b, k, r). -/
theorem ridx_sum_at (b : Fin 8) (n k : Fin 8192) (r : Fin 128) :
    idx_main_v1 (idx_main_v2 (idx_main_v5 (ix3 b n r))) k = ix3 b k r :=
  funext fun a => Fin.ext (by match a with | ⟨0, _⟩ => rfl | ⟨1, _⟩ => rfl | ⟨2, _⟩ => rfl)

/-- The entry of p read for result entry (b, n, r), through its two broadcasts, is entry r. -/
theorem pidx_at (b : Fin 8) (n : Fin 8192) (r : Fin 128) :
    idx_main_v6 (idx_main_v7 (ix3 b n r)) = ix1 r :=
  funext fun a => Fin.ext (by match a with | ⟨0, _⟩ => rfl)

/-- The reference's last value is the specification's result array. -/
theorem ref_eq_result (x0 : (⟨S8x8192x512, .f32⟩ : BufTy).Contents (Elt Ideal)) (x1 : (⟨S512x128, .f32⟩ : BufTy).Contents (Elt Ideal))
    (x2 : (⟨S128, .f32⟩ : BufTy).Contents (Elt Ideal)) :
    Cert.ReferenceIdeal.Read.val_main_v8 (F := Ideal) x0 x1 x2 = Cert.PooledProj.result x0 x1 x2 := by
  funext i
  obtain ⟨b, n, r, rfl⟩ : ∃ (b : Fin 8) (n : Fin 8192) (r : Fin 128), i = ValueIdx.ix3 b n r :=
    ⟨i 0, i 1, i 2, ValueIdx.eq_ix3 i⟩
  rw [Cert.PooledProj.result_ix3]
  unfold Cert.PooledProj.projFirst
  rw [val_main_v8_apply, val_main_v5_apply, val_main_v4_apply, val_main_v2_apply, val_main_v1_apply, val_main_v3_apply,
    val_main_cst_0_apply, val_main_cst_apply, val_main_v7_apply, val_main_v6_apply]
  simp only [val_main_v0_apply, ridx_sum_at, lidx_at, ridx_at, pidx_at, Ideal.mulf_def, Ideal.hostDivf_def, Ideal.ofBits_def]

end Cert.ReferenceIdeal.RefValue

end
-- ==== Proof.Law.lean ====
/-
  The algebraic law behind the pooled projection, over the extended reals, with no program in sight.

  For arrays x of shape [8, 8192, 512] and w of shape [512, 128] whose entries are all real numbers, and an
  arbitrary array p of shape [128] (its entries may be infinite):

      (Σ_d ((0 + Σ_{first 4096 rows} x) + Σ_{last 4096 rows} x) · 2⁻¹³ · w[d, r]) · p[r]
        = ((0 + Σ_n Σ_d x[b, n, d] · w[d, r]) / 8192) · p[r].

  The steps: the coercion of the reals into the extended reals commutes with finite sums and products, so both
  left factors are coercions of real numbers; the three float words denote 0, 1/8192 and 8192; division by the
  real 8192 is multiplication by 1/8192; the sum over the 8192 rows splits into the two halves of 4096 rows;
  and what is left is distributivity and the exchange of two finite sums over the reals.  The factor p[r] is
  common to both sides and is never inspected.
-/
import proofs.«155889_j28338194219464_2_alg».proof.Proof.Spec
import Idealize.ShloMosaic.PureOps.Ideal.Laws
import Mathlib.Algebra.BigOperators.Fin
import Mathlib.Data.EReal.Operations
import Mathlib.Tactic.Ring
import Mathlib.Tactic.NormNum

noncomputable section

namespace Cert.PooledProj

open Idealize.ShloMosaic Idealize.ShloMosaic.ValueIdx

/-! ### The three float words -/

/-- The word `0x00000000` denotes zero. -/
theorem zeroW_eq : zeroW = 0 := Ideal.ofBits_zero_f32

/-- The word `0x39000000` denotes 2⁻¹³ = 1/8192. -/
theorem invW_eq : invW = (((1 : ℝ) / 8192 : ℝ) : EReal) := by
  simp [invW, Ideal.ofBits, Ideal.ieee, -EReal.coe_mul]; norm_num

/-- The word `0x46000000` denotes 8192. -/
theorem lenW_eq : lenW = ((8192 : ℝ) : EReal) := by
  simp [lenW, Ideal.ofBits, Ideal.ieee, -EReal.coe_mul]; norm_num

/-! ### Coercion and finite sums -/

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### The split of the 8192 rows into two halves -/

/-- A sum over the 8192 rows is the sum over the first 4096 rows plus the sum over the last 4096 rows. -/
theorem sum_rows_split (f : Fin 8192 → ℝ) :
    ∑ n : Fin 8192, f n = (∑ r : Fin 4096, f (seqRow 0 r)) + ∑ r : Fin 4096, f (seqRow 1 r) := by
  have h := Fin.sum_univ_add (a := 4096) (b := 4096) (f := fun i : Fin (4096 + 4096) => f i)
  have h0 : ∀ r : Fin 4096, (Fin.castAdd 4096 r : Fin (4096 + 4096)) = seqRow 0 r := by
    intro r; apply Fin.ext; simp [seqRow]
  have h1 : ∀ r : Fin 4096, (Fin.natAdd 4096 r : Fin (4096 + 4096)) = seqRow 1 r := by
    intro r; apply Fin.ext; simp [seqRow]; omega
  simp only [h0, h1] at h
  exact h

/-! ### The identity over the reals -/

/-- Over the reals: pooling the rows (in two halves, scaled by c) and then contracting with W is contracting
    every row with W, summing the rows, and scaling by c. -/
theorem real_law (X : Fin 8192 → Fin 512 → ℝ) (W : Fin 512 → ℝ) (c : ℝ) :
    ∑ d : Fin 512, (((∑ r : Fin 4096, X (seqRow 0 r) d) + ∑ r : Fin 4096, X (seqRow 1 r) d) * c) * W d
      = (∑ n : Fin 8192, ∑ d : Fin 512, X n d * W d) * c := by
  have hs : ∀ d : Fin 512,
      (∑ r : Fin 4096, X (seqRow 0 r) d) + ∑ r : Fin 4096, X (seqRow 1 r) d = ∑ n : Fin 8192, X n d :=
    fun d => (sum_rows_split (fun n => X n d)).symm
  have hc : (∑ n : Fin 8192, ∑ d : Fin 512, X n d * W d) = ∑ d : Fin 512, (∑ n : Fin 8192, X n d) * W d := by
    rw [Finset.sum_comm]
    exact Finset.sum_congr rfl fun d _ => (Finset.sum_mul _ _ _).symm
  rw [hc, Finset.sum_mul]
  refine Finset.sum_congr rfl fun d _ => ?_
  rw [hs d]; ring

/-! ### The two sides as coercions of reals -/

/-- The pooled row of a real-valued array is the coercion of the real pooled row. -/
theorem pooled_coe (xr : SX.Idx → ℝ) (b : Fin 8) (d : Fin 512) :
    pooled (fun i => ((xr i : ℝ) : EReal)) b d
      = ((((∑ r : Fin 4096, xr (ix3 b (seqRow 0 r) d)) + ∑ r : Fin 4096, xr (ix3 b (seqRow 1 r) d))
          * ((1 : ℝ) / 8192) : ℝ) : EReal) := by
  unfold pooled halfSum
  rw [zeroW_eq, invW_eq, zero_add, EReal.coe_mul, EReal.coe_add, coe_sum, coe_sum]

/-- The left factor of the mean-first side, for real-valued x and w. -/
theorem meanFirst_factor_coe (xr : SX.Idx → ℝ) (wr : SW.Idx → ℝ) (b : Fin 8) (r : Fin 128) :
    (∑ d : Fin 512, pooled (fun i => ((xr i : ℝ) : EReal)) b d * ((wr (ix2 d r) : ℝ) : EReal))
      = ((∑ d : Fin 512,
            (((∑ q : Fin 4096, xr (ix3 b (seqRow 0 q) d)) + ∑ q : Fin 4096, xr (ix3 b (seqRow 1 q) d))
              * ((1 : ℝ) / 8192)) * wr (ix2 d r) : ℝ) : EReal) := by
  rw [coe_sum]
  refine Finset.sum_congr rfl fun d _ => ?_
  rw [pooled_coe]
  exact (EReal.coe_mul _ _).symm

/-- The left factor of the projection-first side, for real-valued x and w. -/
theorem projFirst_factor_coe (xr : SX.Idx → ℝ) (wr : SW.Idx → ℝ) (b : Fin 8) (r : Fin 128) :
    Ideal.div (zeroW + ∑ n : Fin 8192, ∑ d : Fin 512,
        ((xr (ix3 b n d) : ℝ) : EReal) * ((wr (ix2 d r) : ℝ) : EReal)) lenW
      = (((∑ n : Fin 8192, ∑ d : Fin 512, xr (ix3 b n d) * wr (ix2 d r)) * ((1 : ℝ) / 8192) : ℝ) : EReal) := by
  have hsum : (∑ n : Fin 8192, ∑ d : Fin 512, ((xr (ix3 b n d) : ℝ) : EReal) * ((wr (ix2 d r) : ℝ) : EReal))
      = ((∑ n : Fin 8192, ∑ d : Fin 512, xr (ix3 b n d) * wr (ix2 d r) : ℝ) : EReal) := by
    rw [coe_sum]
    refine Finset.sum_congr rfl fun n _ => ?_
    rw [coe_sum]
    exact Finset.sum_congr rfl fun d _ => (EReal.coe_mul _ _).symm
  rw [hsum, zeroW_eq, zero_add, lenW_eq, Ideal.div_coe (by norm_num : (8192 : ℝ) ≠ 0), EReal.coe_mul]

/-! ### The law -/

/-- Mean first and projection first agree when every entry of x and of w is a real number. -/
theorem meanFirst_eq_projFirst (x : SX.Idx → EReal) (w : SW.Idx → EReal) (p : SP.Idx → EReal)
    (hx : ∀ i, ∃ a : ℝ, x i = (a : EReal)) (hw : ∀ i, ∃ a : ℝ, w i = (a : EReal)) (b : Fin 8) (r : Fin 128) :
    meanFirst x w p b r = projFirst x w p b r := by
  choose xr hxr using hx
  choose wr hwr using hw
  obtain rfl : x = fun i => ((xr i : ℝ) : EReal) := funext hxr
  obtain rfl : w = fun i => ((wr i : ℝ) : EReal) := funext hwr
  unfold meanFirst projFirst
  refine congrArg (· * p (ix1 r)) ?_
  rw [meanFirst_factor_coe, projFirst_factor_coe]
  exact congrArg (fun t : ℝ => (t : EReal))
    (real_law (fun n d => xr (ix3 b n d)) (fun d => wr (ix2 d r)) ((1 : ℝ) / 8192))

end Cert.PooledProj

end
-- ==== Proof.Finite.lean ====
/-
  The precondition makes x and w real-valued.

  The precondition says that three words are one: for each of the three argument arrays, the conjunction over all of its
  entries of "the absolute value of the entry is below the word +∞". Over the extended reals the absolute value of v
  is max v (-v) and the word 0x7F800000 is ⊤, so each entry v of x and of w satisfies max v (-v) < ⊤; the two infinities
  have absolute value ⊤, which is not below ⊤, so v is a real number.
-/
import proofs.«155889_j28338194219464_2_alg».proof.Defs
import Idealize.ShloMosaic.Lib.ReduceAll
import Idealize.ShloMosaic.Lib.ValueIdx
import Idealize.ShloMosaic.PureOps.Ideal

noncomputable section

namespace Cert.KernelIdeal.Finite

open Cert.KernelIdeal Idealize.ShloMosaic Idealize.SL.Sem

/-- The scalar shape has one index. -/
instance : Subsingleton Cert.Pre_finite_inputs.S_.Idx := ⟨fun a b => funext fun d => d.elim0⟩

/-- The word 0x7F800000 is +∞. -/
theorem inf_word : Ideal.ofBits .f32 0x7F800000#32 = (⊤ : EReal) := by
  simp [Ideal.ofBits, Ideal.ieee]

/-- An extended real whose absolute value compares below the word +∞ is a real number. -/
theorem real_of_abs_lt_inf (v : EReal)
    (h : Ideal.cmp .olt (max v (-v)) (Ideal.ofBits .f32 0x7F800000#32) = 1#1) : ∃ a : ℝ, v = (a : EReal) := by
  rw [inf_word] at h
  have hlt : max v (-v) < ⊤ := by
    by_contra hn
    simp [Ideal.cmp, hn] at h
  induction v using EReal.rec with
  | bot => simp at hlt
  | coe a => exact ⟨a, rfl⟩
  | top => simp at hlt

/-- Under the precondition every entry of x and every entry of w is a real number, on every device. -/
theorem real_of_pre [Cert.Pre_finite_inputs.Facts] (m : (ℓ : Loc nD τ sig) → Buf (Elt Ideal) ℓ) (h : Cert.Pre_KernelIdeal m) (c : Dev nD) :
    (∀ i, ∃ a : ℝ, m ((c.tc : Thread nD τ).loc main_arg0) i = (a : EReal))
    ∧ (∀ i, ∃ a : ℝ, m ((c.tc : Thread nD τ).loc main_arg1) i = (a : EReal)) := by
  have e := congrFun (h c) ValueIdx.ix0
  dsimp only [Cert.Pre_finite_inputs.fn] at e
  obtain ⟨e01, -⟩ := IntOp.andi_eq_one.1 e
  obtain ⟨e0, e1⟩ := IntOp.andi_eq_one.1 e01
  exact ⟨fun i => real_of_abs_lt_inf _ (Host.reduce_andi_all _ _ _ _ ValueIdx.ix0 e0 i),
    fun i => real_of_abs_lt_inf _ (Host.reduce_andi_all _ _ _ _ ValueIdx.ix0 e1 i)⟩

end Cert.KernelIdeal.Finite

end
-- ==== Proof.lean ====
/-
  The certificate's claims.

  The kernel pools an [8, 8192, 512] array x over its sequence axis first (two halves of 4096 rows added to zero,
  times 2⁻¹³), then contracts the pooled rows with w ([512, 128]) and scales by p ([128]), writing the same row to all
  8192 positions; the reference contracts every row of x with w, sums the 8192 results from zero, divides by 8192 and
  scales by p. Over the extended reals the two arrangements agree when x and w are real-valued, which the
  precondition gives: distributivity and the exchange of finite sums need it, the common factor p does not.

  * The three frames: the two kernel programs' are the generated frame certificates; the reference's is its run with
    the result forgotten.
  * The idealization rewrote nothing, so there is nothing to preserve.
  * The value claim: the idealized kernel's run leaves its result array at the mean-first array of the arguments,
    the reference's run leaves its result at the projection-first array, the arguments agree, and the law joins them.
-/
import proofs.«155889_j28338194219464_2_alg».proof.Defs
import proofs.«155889_j28338194219464_2_alg».proof.Proof.Gen.Kernel
import proofs.«155889_j28338194219464_2_alg».proof.Proof.Gen.Kernel.Frame
import proofs.«155889_j28338194219464_2_alg».proof.Proof.Gen.KernelIdeal
import proofs.«155889_j28338194219464_2_alg».proof.Proof.Gen.KernelIdeal.Frame
import proofs.«155889_j28338194219464_2_alg».proof.Proof.Gen.ReferenceIdeal
import proofs.«155889_j28338194219464_2_alg».proof.Proof.Gen.Pre_finite_inputs
import proofs.«155889_j28338194219464_2_alg».proof.Proof.Gen.ReferenceIdeal.Run
import proofs.«155889_j28338194219464_2_alg».proof.Proof.Gen.ReferenceIdeal.Read
import proofs.«155889_j28338194219464_2_alg».proof.Proof.Run
import proofs.«155889_j28338194219464_2_alg».proof.Proof.KernelValue
import proofs.«155889_j28338194219464_2_alg».proof.Proof.RefValue
import proofs.«155889_j28338194219464_2_alg».proof.Proof.Law
import proofs.«155889_j28338194219464_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization is the program's own text read over the extended reals. -/
theorem preserves : Cert.preserves_Kernel_KernelIdeal := trivial

/-- Both idealized programs end with the projection-first array of the (agreeing) arguments: the reference by
    reading its operations, the kernel because its mean-first array equals it when x and w are real-valued. -/
theorem algebraic : Cert.algebraic_KernelIdeal_ReferenceIdeal := by
  intro m ρ m' ρ' hpre hagree
  refine ⟨fun c => Cert.PooledProj.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.KernelIdeal.RunV.run_main (F := Ideal) m ρ)
    refine (Cert.KernelIdeal.KernelValue.result_eq m ρ c).trans ?_
    obtain ⟨hx, hw⟩ := Cert.KernelIdeal.Finite.real_of_pre m hpre c
    funext j
    obtain ⟨b, n, q, rfl⟩ : ∃ (b : Fin 8) (n : Fin 8192) (q : Fin 128), j = ix3 b n q := ⟨j 0, j 1, j 2, eq_ix3 j⟩
    rw [Cert.PooledProj.resultMeanFirst_ix3]
    exact (Cert.PooledProj.meanFirst_eq_projFirst _ _ _ hx hw b q).trans (Cert.PooledProj.result_ix3 _ _ _ b n q).symm
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v8_eq, Cert.ReferenceIdeal.RefValue.ref_eq_result,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
